-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : FVec F S512x128 .f32) (main_arg2 : FVec F S128 .f32) (main_arg3 : FVec F S128x2 .f32) (main_arg4 : FVec F S2 .f32) (main_arg5 : IVec S2x1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg4 main_v13 main_v16
-- ==== Kernel.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S100000x128 : Shape := ⟨2, ![100000, 128]⟩
abbrev S4000x512 : Shape := ⟨2, ![4000, 512]⟩
abbrev S4000x128 : Shape := ⟨2, ![4000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x2 : Shape := ⟨2, ![1, 2]⟩
abbrev S100000x2 : Shape := ⟨2, ![100000, 2]⟩
abbrev S10000x128 : Shape := ⟨2, ![10000, 128]⟩
abbrev S10000x2 : Shape := ⟨2, ![10000, 2]⟩

abbrev nBuf : Space → Nat
  | .hbm => 68
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S2x1600000, .i32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1700000, .i32⟩
  | .hbm, ⟨18, _⟩ => ⟨S1700000, .i1⟩
  | .hbm, ⟨19, _⟩ => ⟨S_, .i32⟩
  | .hbm, ⟨20, _⟩ => ⟨S1700000, .i32⟩
  | .hbm, ⟨21, _⟩ => ⟨S1700000, .i32⟩
  | .hbm, ⟨22, _⟩ => ⟨S1700000, .i32⟩
  | .hbm, ⟨23, _⟩ => ⟨S1700000x1, .i32⟩
  | .hbm, ⟨24, _⟩ => ⟨S_, .f32⟩
  | .hbm, ⟨25, _⟩ => ⟨S1700000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1x2, .f32⟩
  | .hbm, ⟨67, _⟩ => ⟨S100000x2, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S10000x128, .f32⟩
  | .local _ .vmem, ⟨6, _⟩ => ⟨S10000x128, .f32⟩
  | .local _ .vmem, ⟨7, _⟩ => ⟨S128x2, .f32⟩
  | .local _ .vmem, ⟨8, _⟩ => ⟨S1x2, .f32⟩
  | .local _ .vmem, ⟨9, _⟩ => ⟨S10000x2, .f32⟩
  | .local _ .vmem, ⟨10, _⟩ => ⟨S10000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2_S1x2 : S2.ShapeCasts S1x2
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  dot_S4000x512_S512x128_S4000x128_1_0_0_1_n_n_wf : DotDims.WF S4000x512 S512x128 S4000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x2_S10000x2_1_0_0_1_n_n_wf : DotDims.WF S10000x128 S128x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S2x1600000 : Shape := ⟨2, ![2, 1600000]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 70
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S2x1600000, .i32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1700000, .i32⟩
  | .hbm, ⟨18, _⟩ => ⟨S1700000, .i1⟩
  | .hbm, ⟨19, _⟩ => ⟨S_, .i32⟩
  | .hbm, ⟨20, _⟩ => ⟨S1700000, .i32⟩
  | .hbm, ⟨21, _⟩ => ⟨S1700000, .i32⟩
  | .hbm, ⟨22, _⟩ => ⟨S1700000, .i32⟩
  | .hbm, ⟨23, _⟩ => ⟨S1700000x1, .i32⟩
  | .hbm, ⟨24, _⟩ => ⟨S_, .f32⟩
  | .hbm, ⟨25, _⟩ => ⟨S1700000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x2, .f32⟩
  | .hbm, ⟨67, _⟩ => ⟨S1x2, .f32⟩
  | .hbm, ⟨68, _⟩ => ⟨S100000x2, .f32⟩
  | .hbm, ⟨69, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The run of the two-region program with its result array NAMED.

  The program's buffers pass through four boundaries: the launch memory, the exit of the first region (its output
  array at what the write-backs leave, everything else as entered), the end of the host operations between the
  regions, and the exit of the second region.  Every weakly fair execution terminates in a state whose unscoped
  buffers are the last boundary's contents; read at the result buffer that is the second region's output array
  after its last write-back, and read at an argument it is the launch memory.
-/
import proofs.«177613_j85392539779308_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v50) = W3 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v50 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunNamed

end
-- ==== Proof.Spec.lean ====
/-
  The two dense layers of the graph convolution, as functions on the extended reals.

  `matMul a b` is the rows-by-columns product of an [M, K] array and a [K, N] array: entry (p, q) is the sum over k
  of a (p, k) · b (k, q).  `rowAffine a b r` adds to it the one-row array r, laid over every row: entry (p, q) is
  (a·b)(p, q) + r (0, q).  Entry (p, q) of either depends on row p of `a` only, which is why a product computed
  on a block of rows is the block of rows of the product.
-/
import Idealize.ShloMosaic.Lib.ValueIdx
import Idealize.ShloMosaic.PureOps.Ideal

noncomputable section

open scoped BigOperators

namespace Cert.Spec

open Idealize.ShloMosaic Idealize.ShloMosaic.ValueIdx

/-- Entry (p, q) of the product of an [M, K] array and a [K, N] array. -/
def matMul (M K N : Nat) (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

theorem matMul_apply (M K N : Nat) (a : (⟨2, ![M, K]⟩ : Shape).Idx → EReal) (b : (⟨2, ![K, N]⟩ : Shape).Idx → EReal)
    (p : Fin M) (q : Fin N) : matMul M K N a b (ix2 p q) = ∑ k : Fin K, a (ix2 p k) * b (ix2 k q) := rfl

/-- The product plus a one-row array laid over every row. -/
def rowAffine (M K N : Nat) (a : (⟨2, ![M, K]⟩ : Shape).Idx → EReal) (b : (⟨2, ![K, N]⟩ : Shape).Idx → EReal)
    (r : (⟨2, ![1, N]⟩ : Shape).Idx → EReal) : (⟨2, ![M, N]⟩ : Shape).Idx → EReal :=
  fun i => matMul M K N a b i + r (ix2 (0 : Fin 1) (i 1))

theorem rowAffine_apply (M K N : Nat) (a : (⟨2, ![M, K]⟩ : Shape).Idx → EReal) (b : (⟨2, ![K, N]⟩ : Shape).Idx → EReal)
    (r : (⟨2, ![1, N]⟩ : Shape).Idx → EReal) (p : Fin M) (q : Fin N) :
    rowAffine M K N a b r (ix2 p q) = (∑ k : Fin K, a (ix2 p k) * b (ix2 k q)) + r (ix2 (0 : Fin 1) q) := rfl

/-- A vector of length N laid out as the one row of a [1, N] array. -/
def asRow (N : Nat) (v : (⟨1, ![N]⟩ : Shape).Idx → EReal) : (⟨2, ![1, N]⟩ : Shape).Idx → EReal :=
  fun j => v (ix1 (j 1))

theorem asRow_apply (N : Nat) (v : (⟨1, ![N]⟩ : Shape).Idx → EReal) (u : Fin 1) (q : Fin N) :
    asRow N v (ix2 u q) = v (ix1 q) := rfl

end Cert.Spec

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.Region0Value.lean ====
/-
  The first region: h0 = x · w1, computed 4000 rows at a time.

  Grid point t takes rows 4000 t … 4000 t + 3999 of x and all of w1, and writes the product of the two into the same
  rows of the output array.  Entry (p, q) of a product depends on row p of the left factor only, so what point t
  writes back is block t of the whole product x · w1; the 25 blocks fill the 100000 rows, so after the region the
  output array is x · w1.
-/
import proofs.«177613_j85392539779308_1_alg».proof.Proof.Gen.KernelIdeal.Frame
import proofs.«177613_j85392539779308_1_alg».proof.Proof.Spec
import proofs.«177613_j85392539779308_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region0
open Idealize.ShloMosaic Idealize.ShloMosaic.TcCoe Idealize.SL.Sem Idealize.ShloMosaic.ValueIdx
open Cert.KernelIdeal Cert.KernelIdeal.Gen

/-- Entry (p, q) of what the body computes from a block of rows x0 and the whole right factor x1: the sum over k of
    x0 (p, k) · x1 (k, q). Rounding the operands to the narrower format is the identity on the extended reals, and the
    accumulator is the zero array. -/
theorem product_entry (x0 : Vec Ideal S4000x512 .f32) (x1 : Vec Ideal S512x128 .f32) (p : Fin 4000) (q : Fin 128) :
    k0_pay1 (F := Ideal) x0 x1 (ix2 p q) = ∑ k : Fin 512, x0 (ix2 p k) * x1 (ix2 k q) := by
  unfold k0_pay1
  exact Cert.Bridge.matmul_plain_zero_apply 4000 512 128 none (truncf .bf16 x0 bitsLt_bf16_f32) (truncf .bf16 x1 bitsLt_bf16_f32) p q

/-- So when the block's row p is row r of an array A and the right factor is B, the entry is entry (r, q) of A · B. -/
theorem product_entry_of_rows (x0 : Vec Ideal S4000x512 .f32) (x1 : Vec Ideal S512x128 .f32)
    (A : (⟨2, ![100000, 512]⟩ : Shape).Idx → EReal) (B : (⟨2, ![512, 128]⟩ : Shape).Idx → EReal)
    (p : Fin 4000) (q : Fin 128) (r : Fin 100000)
    (h0 : ∀ k : Fin 512, x0 (ix2 p k) = A (ix2 r k)) (h1 : ∀ k : Fin 512, x1 (ix2 k q) = B (ix2 k q)) :
    k0_pay1 (F := Ideal) x0 x1 (ix2 p q) = Cert.Spec.matMul 100000 512 128 A B (ix2 r q) := by
  rw [Cert.Spec.matMul_apply]
  refine (product_entry x0 x1 p q).trans ?_
  exact Finset.sum_congr rfl fun k _ => by rw [h0 k, h1 k]

theorem zero_offsets : (![0, 0] : Fin 2 → Nat) = fun _ => 0 := funext fun a => by fin_cases a <;> rfl

/-- The block indices over the 25 grid points: the left factor and the product move down one block of rows per point,
    the right factor stays at its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of x · w1: rows 4000 t … 4000 t + 3999, every column. Row p of the point's
    block of x is row 4000 t + p of x, and the point's block of w1 is all of w1. -/
theorem flushed_eq (c : Dev nD) (t : Fin cfg0.N) :
    (dat0 (F := Ideal) V c).flushed 2 t
      = ((cfg0.win 2).blk t).view.read (Elt Ideal) (Cert.Spec.matMul 100000 512 128 (V c main_arg0) (V c main_arg1)) := by
  show (cfg0.win 2).cut (grid0.coords t) ((dat0 V c).after 2 t) = _
  rw [after0_2]
  unfold out0_2
  rw [View.canon_unit_zero zero_offsets]
  simp only [View.ld_unit_zero (S := S4000x512) zero_offsets, View.ld_unit_zero (S := S512x128) zero_offsets]
  obtain ⟨e00, e01, e10, e11, e20, e21⟩ := block_indices t
  have ht : t.val < 25 := t.isLt
  funext j
  obtain ⟨p, q, rfl⟩ : ∃ (p : Fin 4000) (q : Fin 128), j = ix2 p q := ⟨j 0, j 1, eq_ix2 j⟩
  have hp : p.val < 4000 := p.isLt
  have hemb : ((cfg0.win 2).blk t).view.emb (ix2 p q) = ix2 (⟨t.val * 4000 + p.val, by omega⟩ : Fin 100000) q := by
    funext a; apply Fin.ext
    match a with
    | ⟨0, _⟩ => show win0_2.index t (0 : Fin 2) * 4000 + 1 * p.val = t.val * 4000 + p.val; omega
    | ⟨1, _⟩ => show win0_2.index t (1 : Fin 2) * 128 + 1 * q.val = q.val; omega
  show k0_pay1 (iblk0 V c 0 t) (iblk0 V c 1 t) (ix2 p q)
    = Cert.Spec.matMul 100000 512 128 (V c main_arg0) (V c main_arg1) (((cfg0.win 2).blk t).view.emb (ix2 p q))
  rw [hemb]
  refine product_entry_of_rows (iblk0 V c 0 t) (iblk0 V c 1 t) (V c main_arg0) (V c main_arg1) p q _ (fun k => ?_) (fun k => ?_)
  · show V c main_arg0 (((cfg0.win 0).blk t).view.emb (ix2 p k)) = V c main_arg0 _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 512 + 1 * k.val = k.val; omega
  · show V c main_arg1 (((cfg0.win 1).blk t).view.emb (ix2 k q)) = V c main_arg1 _
    refine congrArg _ (funext fun a => Fin.ext ?_)
    match a with
    | ⟨0, _⟩ => show win0_1.index t (0 : Fin 2) * 512 + 1 * k.val = k.val; omega
    | ⟨1, _⟩ => show win0_1.index t (1 : Fin 2) * 128 + 1 * q.val = q.val; omega

/-- An index of the product array is in point t's block iff each coordinate is in the block's range on its axis. -/
theorem mem_block (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v0).slice (win0_2.rect t)).set ↔ _
  rw [View.set_slice_whole, Rect.mem_set_unit]
  exact Iff.rfl

/-- The 25 blocks of 4000 rows fill the 100000 rows: row r lies in the block of point r / 4000. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  obtain ⟨t, htv⟩ : ∃ t : Fin cfg0.N, t.val = (i 0).val / 4000 :=
    ⟨⟨(i 0).val / 4000, by show (i 0).val / 4000 < grid0.N; omega⟩, rfl⟩
  obtain ⟨-, -, -, -, e20, e21⟩ := block_indices t
  refine ⟨t, flush0_2 t, ?_⟩
  rw [mem_block]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- After the first region the product array holds x · w1: entry (p, q) is the sum over k of x (p, k) · w1 (k, q). -/
theorem final (c : Dev nD) :
    (dat0 (F := Ideal) V c).arrAt 2 cfg0.N = Cert.Spec.matMul 100000 512 128 (V c main_arg0) (V c main_arg1) :=
  (dat0 (F := Ideal) V c).arrAt_eq_of_cover 2 _ (fun t _ => flushed_eq V c t) blocks_cover

end Cert.KernelIdeal.Region0
end
-- ==== Proof.Region1Value.lean ====
/-
  The second dense layer, block by block.

  The second region walks ten grid points. At point t it holds rows 10000·t … 10000·t + 9999 of h (a [10000, 128]
  block of the [100000, 128] array), all of w2 ([128, 2]) and the one bias row ([1, 2]), and writes back rows
  10000·t … 10000·t + 9999 of the [100000, 2] result. What it stores at (p, q) of its block is the sum over k of
  block (p, k) · w2 (k, q), plus the bias row at q. Entry (r, q) of h · w2 reads row r of h and nothing else of h, so
  the product of a block of rows is the block of rows of the product; the bias row is laid over every row alike. The ten
  blocks of rows are disjoint and fill the result, row r lying in block r / 10000, so the result array ends holding
  h · w2 plus the bias row at every index.
-/
import proofs.«177613_j85392539779308_1_alg».proof.Proof.Gen.KernelIdeal.Frame
import proofs.«177613_j85392539779308_1_alg».proof.Proof.Spec
import proofs.«177613_j85392539779308_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Region1
open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## What the body stores, at an index -/

/-- The block's product: a block of rows of h against w2, entry (p, q) the sum over k of block (p, k) · w2 (k, q).
    Rounding the operands to the narrower format changes nothing at the ideal values, and a cast to the same shape
    is the identity. -/
theorem blockProduct_apply (x0 : Vec Ideal S10000x128 .f32) (x1 : Vec Ideal S128x2 .f32)
    (hc : S10000x128.ShapeCasts S10000x128) (hb : FTy.bits .bf16 < FTy.bits .f32) (p : Fin 10000) (q : Fin 2) :
    matmul (F := Ideal) dot_S10000x128_S128x2_S10000x2_1_0_0_1_n_n none
        (truncf .bf16 (shapeCast S10000x128 x0 hc) hb) (truncf .bf16 x1 hb) (constant S10000x2 .f32 0x00000000#32) (ix2 p q)
      = ∑ k : Fin 128, x0 (ix2 p k) * x1 (ix2 k q) := by
  rw [shapeCast_self]
  exact Cert.Bridge.matmul_plain_zero_apply (φ₁ := .bf16) (φ₂ := .bf16) 10000 128 2 none x0 x1 p q

/-- What the body stores at (p, q) of its block: the block's product there plus the bias row at q (the one row laid
    over all 10000 rows reads, at row p, as row 0). -/
theorem payload_apply (x0 : Vec Ideal S10000x128 .f32) (x1 : Vec Ideal S128x2 .f32) (x2 : Vec Ideal S1x2 .f32)
    (p : Fin 10000) (q : Fin 2) :
    k1_pay1 (F := Ideal) x0 x1 x2 (ix2 p q) = (∑ k : Fin 128, x0 (ix2 p k) * x1 (ix2 k q)) + x2 (ix2 (0 : Fin 1) q) := by
  unfold k1_pay1
  refine congrArg₂ (· + ·) (blockProduct_apply x0 x1 _ _ p q) ?_
  refine (broadcastTo_1b_ab_apply _ _ p q).trans ?_
  rw [shapeCast_self]

/-- At grid point T the body holds rows 10000·T … 10000·T + 9999 of h, all of w2 and the bias row; what it stores at
    (p, q) of its block is entry (10000·T + p, q) of h · w2 plus the bias row: that entry reads row 10000·T + p of h only,
    which is row p of the block. -/
theorem point_apply (A : S100000x128.Idx → EReal) (B : S128x2.Idx → EReal) (R : S1x2.Idx → EReal)
    (x0 : Vec Ideal S10000x128 .f32) (x1 : Vec Ideal S128x2 .f32) (x2 : Vec Ideal S1x2 .f32) (T : Nat)
    (h0 : ∀ (y : S10000x128.Idx) (z : S100000x128.Idx), (z 0).val = T * 10000 + (y 0).val → (z 1).val = (y 1).val → x0 y = A z)
    (h1 : ∀ y, x1 y = B y) (h2 : ∀ y, x2 y = R y)
    (j : S10000x2.Idx) (i : S100000x2.Idx) (hi0 : (i 0).val = T * 10000 + (j 0).val) (hi1 : (i 1).val = (j 1).val) :
    k1_pay1 (F := Ideal) x0 x1 x2 j = Cert.Spec.rowAffine 100000 128 2 A B R i := by
  obtain ⟨p, q, rfl⟩ : ∃ (p : Fin 10000) (q : Fin 2), j = ix2 p q := ⟨j 0, j 1, eq_ix2 j⟩
  obtain ⟨r, s, rfl⟩ : ∃ (r : Fin 100000) (s : Fin 2), i = ix2 r s := ⟨i 0, i 1, eq_ix2 i⟩
  obtain rfl : s = q := Fin.ext hi1
  rw [payload_apply, Cert.Spec.rowAffine_apply]
  refine congrArg₂ (· + ·) (Finset.sum_congr rfl fun k _ => congrArg₂ (· * ·) (h0 _ _ hi0 rfl) (h1 _)) (h2 _)

/-! ## From the ten blocks to the array -/

/-- The zero offsets of a whole-buffer access, as the constant function. -/
theorem hz : (![0, 0] : Fin 2 → Nat) = fun _ => 0 := funext fun a => by fin_cases a <;> rfl

/-- The index maps over the ten grid points: the blocks of h and of the result are at block row t, block column 0;
    w2 and the bias row are single blocks, at (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of h · w2 plus the bias row: rows 10000·t … 10000·t + 9999. A block's
    coordinate on an axis is the block index times the block's extent plus the coordinate inside the block, so row p of
    the block of h is row 10000·t + p of h, and w2 and the bias row are read where they lie. -/
theorem flushed_eq (c : Dev nD) (t : Fin cfg1.N) :
    (dat1 (F := Ideal) V c).flushed 3 t
      = ((cfg1.win 3).blk t).view.read (Elt Ideal) (Cert.Spec.rowAffine 100000 128 2 (V c main_v48) (V c main_arg3) (V c main_v49)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x2) hz, View.ld_unit_zero (S := S1x2) hz]
  obtain ⟨e0, e1, e2, e3, e4, e5, e6, e7⟩ := index_facts t
  funext j
  show k1_pay1 (F := Ideal) (iblk1 V c 0 t) (iblk1 V c 1 t) (iblk1 V c 2 t) j
    = Cert.Spec.rowAffine 100000 128 2 (V c main_v48) (V c main_arg3) (V c main_v49) (((cfg1.win 3).blk t).view.emb j)
  refine point_apply (V c main_v48) (V c main_arg3) (V c main_v49) (iblk1 V c 0 t) (iblk1 V c 1 t) (iblk1 V c 2 t) t.val
    ?_ ?_ ?_ j (((cfg1.win 3).blk t).view.emb j) ?_ ?_
  · intro y z hz0 hz1
    show V c main_v48 (((cfg1.win 0).blk t).view.emb y) = V c main_v48 z
    refine congrArg (V c main_v48) (funext fun a => Fin.ext ?_)
    match a with
    | ⟨0, _⟩ => show win1_0.index t (0 : Fin 2) * 10000 + 1 * (y 0).val = (z 0).val; omega
    | ⟨1, _⟩ => show win1_0.index t (1 : Fin 2) * 128 + 1 * (y 1).val = (z 1).val; omega
  · intro y
    show V c main_arg3 (((cfg1.win 1).blk t).view.emb y) = V c main_arg3 y
    refine congrArg (V c main_arg3) (funext fun a => Fin.ext ?_)
    match a with
    | ⟨0, _⟩ => show win1_1.index t (0 : Fin 2) * 128 + 1 * (y 0).val = (y 0).val; omega
    | ⟨1, _⟩ => show win1_1.index t (1 : Fin 2) * 2 + 1 * (y 1).val = (y 1).val; omega
  · intro y
    show V c main_v49 (((cfg1.win 2).blk t).view.emb y) = V c main_v49 y
    refine congrArg (V c main_v49) (funext fun a => Fin.ext ?_)
    match a with
    | ⟨0, _⟩ => show win1_2.index t (0 : Fin 2) * 1 + 1 * (y 0).val = (y 0).val; omega
    | ⟨1, _⟩ => show win1_2.index t (1 : Fin 2) * 2 + 1 * (y 1).val = (y 1).val; omega
  · show win1_3.index t (0 : Fin 2) * 10000 + 1 * (j 0).val = t.val * 10000 + (j 0).val; omega
  · show win1_3.index t (1 : Fin 2) * 2 + 1 * (j 1).val = (j 1).val; omega

/-- An index of the result array is in point t's block iff each coordinate is in the block's range on its axis. -/
theorem mem_blk (t : Fin cfg1.N) (i : S100000x2.Idx) :
    i ∈ ((cfg1.win 3).blk t).view.set
      ↔ ∀ a : Fin 2, win1_3.index t a * S10000x2.size a ≤ (i a).val ∧ (i a).val < win1_3.index t a * S10000x2.size a + S10000x2.size a := by
  show i ∈ ((View.whole main_v50).slice (win1_3.rect t)).set ↔ _
  rw [View.set_slice_whole, Rect.mem_set_unit]
  exact Iff.rfl

/-- The ten blocks of rows fill the result array: row r is in block r / 10000, and both columns are in every block. -/
theorem covered (i : S100000x2.Idx) :
    ∃ t : Fin cfg1.N, (cfg1.win 3).flush t = true ∧ i ∈ ((cfg1.win 3).blk t).view.set := by
  have hi0 : (i 0).val < 100000 := (i 0).isLt
  have hi1 : (i 1).val < 2 := (i 1).isLt
  obtain ⟨t, ht⟩ : ∃ t : Fin cfg1.N, t.val = (i 0).val / 10000 := ⟨⟨(i 0).val / 10000, by show _ < 10; omega⟩, rfl⟩
  obtain ⟨-, -, -, -, -, -, e6, e7⟩ := index_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 2 ≤ (i 1).val ∧ (i 1).val < win1_3.index t (1 : Fin 2) * 2 + 2; omega

/-- After the second region the result array holds h · w2 plus the bias row: entry (p, q) is the sum over k of h (p, k) · w2 (k, q), plus row (0, q). -/
theorem final (c : Dev nD) :
    (dat1 (F := Ideal) V c).arrAt 3 cfg1.N = Cert.Spec.rowAffine 100000 128 2 (V c main_v48) (V c main_arg3) (V c main_v49) :=
  (dat1 (F := Ideal) V c).arrAt_eq_of_cover 3 _ (fun t _ => flushed_eq V c t) covered

end Cert.KernelIdeal.Region1
end
-- ==== Proof.RefValue.lean ====
/-
  The reference, read as one function of its arguments.

  The reference computes h0 = x · w1, then the propagation step of the graph convolution — gather the rows of h0 at
  the edges' sources, scale each by the symmetric normalisation of its edge, scatter-add them at the edges'
  destinations, add the bias b1 —, then the output layer h · w2 + b2.  The propagation step reads h0 as a whole and is
  the same sequence of operations whoever computed h0, so it is named here as ONE function `propagate` of h0, b1 and
  the edge list and never opened.  What is proved is that the reference's result is
  rowAffine (propagate (matMul x w1) b1 edges) w2 (b2 as a row): both of its matrix products are plain sums at the
  ideal values, and its two broadcasts of b2 read entry (p, q) at b2 (q).
-/
import proofs.«177613_j85392539779308_1_alg».proof.Proof.Gen.ReferenceIdeal.Read
import proofs.«177613_j85392539779308_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

section AnyInstance
variable {F : FTy → Type} [FloatOps F]

/-- The propagation step as a function of the transformed features `h0`, the bias and the edge list: the rows of `h0`
    gathered at the sources, each scaled by its edge's normalisation, summed at the destinations, plus the bias. The
    index arrays and the normalisation depend on the edge list alone. -/
def propagate (h0 : (⟨S100000x128, .f32⟩ : BufTy).Contents (Elt F)) (x2 : (⟨S128, .f32⟩ : BufTy).Contents (Elt F))
    (x5 : (⟨S2x1600000, .i32⟩ : BufTy).Contents (Elt F)) : (⟨S100000x128, .f32⟩ : BufTy).Contents (Elt F) :=
  addf (Host.scatterAdd scatter_S100000x128_S1700000x1_S1700000x128_1_0_0_1 (val_main_v43 (F := F)) (val_main_v44 (F := F) x5)
      (mulf (Host.gather gather_S100000x128_S1700000x1_S1700000x128_1_0_n_n_0_1_1128 h0 (val_main_v38 (F := F) x5)) (val_main_v41 (F := F) x5)))
    (val_main_v47 (F := F) x2)

/-- The reference's hidden layer is the propagation step applied to its own first product. -/
theorem hidden_eq (x0 : (⟨S100000x512, .f32⟩ : BufTy).Contents (Elt F)) (x1 : (⟨S512x128, .f32⟩ : BufTy).Contents (Elt F))
    (x2 : (⟨S128, .f32⟩ : BufTy).Contents (Elt F)) (x5 : (⟨S2x1600000, .i32⟩ : BufTy).Contents (Elt F)) :
    val_main_v48 (F := F) x0 x1 x2 x5 = propagate (val_main_v0 (F := F) x0 x1) x2 x5 := rfl

end AnyInstance

/-- The reference's first product, at the ideal values, is the plain sum over the 512 features. -/
theorem first_product (x0 : (⟨S100000x512, .f32⟩ : BufTy).Contents (Elt Ideal)) (x1 : (⟨S512x128, .f32⟩ : BufTy).Contents (Elt Ideal)) :
    val_main_v0 (F := Ideal) x0 x1 = Cert.Spec.matMul 100000 512 128 x0 x1 := by
  funext i
  rw [val_main_v0_apply]
  show _ = ∑ k : Fin 512, x0 (ix2 (i 0) k) * x1 (ix2 k (i 1))
  refine Finset.sum_congr rfl fun k _ => ?_
  have el : lidx_main_v0 i k = ix2 (i 0) k := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  exact congrArg₂ (· * ·) (congrArg x0 el) (congrArg x1 er)

/-- The reference's result: the output layer applied to the propagated first product. -/
theorem result_eq (x0 : (⟨S100000x512, .f32⟩ : BufTy).Contents (Elt Ideal)) (x1 : (⟨S512x128, .f32⟩ : BufTy).Contents (Elt Ideal))
    (x2 : (⟨S128, .f32⟩ : BufTy).Contents (Elt Ideal)) (x3 : (⟨S128x2, .f32⟩ : BufTy).Contents (Elt Ideal))
    (x4 : (⟨S2, .f32⟩ : BufTy).Contents (Elt Ideal)) (x5 : (⟨S2x1600000, .i32⟩ : BufTy).Contents (Elt Ideal)) :
    val_main_v52 (F := Ideal) x0 x1 x2 x3 x4 x5
      = Cert.Spec.rowAffine 100000 128 2 (propagate (F := Ideal) (Cert.Spec.matMul 100000 512 128 x0 x1) x2 x5) x3 (Cert.Spec.asRow 2 x4) := by
  funext i
  rw [val_main_v52_apply, val_main_v49_apply, val_main_v51_apply, val_main_v50_apply, hidden_eq, first_product]
  generalize propagate (F := Ideal) (Cert.Spec.matMul 100000 512 128 x0 x1) x2 x5 = h
  show (∑ k : Fin 128, h (lidx_main_v49 i k) * x3 (ridx_main_v49 i k)) + x4 (idx_main_v50 (idx_main_v51 i))
    = (∑ k : Fin 128, h (ix2 (i 0) k) * x3 (ix2 k (i 1))) + x4 (ix1 (i 1))
  have eb : idx_main_v50 (idx_main_v51 i) = ix1 (i 1) := funext fun a => Fin.ext (by
    match a with
    | ⟨0, _⟩ => rfl)
  rw [eb]
  refine congrArg (· + x4 (ix1 (i 1))) (Finset.sum_congr rfl fun k _ => ?_)
  have el : lidx_main_v49 i k = ix2 (i 0) k := funext fun a => Fin.ext (by
    match a with
    | ⟨0, _⟩ => rfl
    | ⟨1, _⟩ => rfl)
  have er : ridx_main_v49 i k = ix2 k (i 1) := funext fun a => Fin.ext (by
    match a with
    | ⟨0, _⟩ => rfl
    | ⟨1, _⟩ => rfl)
  exact congrArg₂ (· * ·) (congrArg h el) (congrArg x3 er)

end Cert.ReferenceIdeal.RefValue

end
-- ==== Proof.Between.lean ====
/-
  The host operations between the two regions, read at the three arrays the second region takes.

  Between the regions the program runs the propagation step of the graph convolution on the first region's product
  and reshapes the output bias into a one-row array.  Read at the hidden-layer buffer, the operations' composed term is
  the reference's own propagation function of the product array, the bias and the edge list: the two programs print
  the same operations there, so the function is carried as a name and never opened.  The output weights are written
  by no operation, and the bias row is the bias vector with a unit axis in front.
-/
import proofs.«177613_j85392539779308_1_alg».proof.Proof.Gen.KernelIdeal.Frame
import proofs.«177613_j85392539779308_1_alg».proof.Proof.RefValue
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The hidden layer the second region reads is the propagation step applied to the first region's output array,
    the bias and the edge list as the first region left them. -/
theorem hidden (c : Dev nD) :
    V2 m ρ c main_v48 = Cert.ReferenceIdeal.RefValue.propagate (F := F) (W1 m ρ c (Proc.devRef .tc main_v0))
      (W1 m ρ c (Proc.devRef .tc main_arg2)) (W1 m ρ c (Proc.devRef .tc main_arg5)) := by
  show StableHlo.after hostOps1 (W1 m ρ c) (Proc.devRef .tc main_v48) = _
  after_results_simp
  rfl

/-- No operation between the regions writes the output weights. -/
theorem weights (c : Dev nD) : V2 m ρ c main_arg3 = W1 m ρ c (Proc.devRef .tc main_arg3) := by
  show StableHlo.after hostOps1 (W1 m ρ c) (Proc.devRef .tc main_arg3) = _
  after_results_simp

/-- The bias row is the bias vector reshaped to one row. -/
theorem biasRow (c : Dev nD) :
    V2 m ρ c main_v49 = shapeCast S1x2 (W1 m ρ c (Proc.devRef .tc main_arg4)) shapeCasts_S2_S1x2 := by
  show StableHlo.after hostOps1 (W1 m ρ c) (Proc.devRef .tc main_v49) = _
  after_results_simp
  rfl

end Cert.KernelIdeal.Between

end
-- ==== Proof.KernelValue.lean ====
/-
  The kernel program's result array as one function of its arguments.

  The first region leaves x · w1 in the product array; the host operations between the regions apply the propagation
  step to it; the second region leaves (hidden · w2) + b2-as-a-row in the result array.  Composed, the result buffer
  after the run holds, at the ideal values, exactly the function the reference computes of the same arguments.
-/
import proofs.«177613_j85392539779308_1_alg».proof.Proof.Region0Value
import proofs.«177613_j85392539779308_1_alg».proof.Proof.Region1Value
import proofs.«177613_j85392539779308_1_alg».proof.Proof.Between
import proofs.«177613_j85392539779308_1_alg».proof.Proof.RefValue
import Idealize.ShloMosaic.Lib.ValueLayout

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The product array after the first region: x · w1 of the launch contents. -/
theorem product (c : Dev nD) :
    W1 m ρ c (Proc.devRef .tc main_v0)
      = Cert.Spec.matMul 100000 512 128 (m ((c : Thread nD τ).loc main_arg0)) (m ((c : Thread nD τ).loc main_arg1)) :=
  (W1_arr m ρ c 2).trans (Cert.KernelIdeal.Region0.final (V0 m ρ) c)

/-- The hidden layer the second region reads: the propagation step of the product, the bias and the edge list. -/
theorem hidden (c : Dev nD) :
    V2 m ρ c main_v48
      = Cert.ReferenceIdeal.RefValue.propagate (F := Ideal)
          (Cert.Spec.matMul 100000 512 128 (m ((c : Thread nD τ).loc main_arg0)) (m ((c : Thread nD τ).loc main_arg1)))
          (m ((c : Thread nD τ).loc main_arg2)) (m ((c : Thread nD τ).loc main_arg5)) := by
  refine (Cert.KernelIdeal.Between.hidden m ρ c).trans ?_
  rw [product m ρ c, W1_of_ne m ρ c main_arg2 (by decide), W1_of_ne m ρ c main_arg5 (by decide)]

/-- The output weights the second region reads are the launch contents. -/
theorem weights (c : Dev nD) : V2 m ρ c main_arg3 = m ((c : Thread nD τ).loc main_arg3) :=
  (Cert.KernelIdeal.Between.weights m ρ c).trans (W1_of_ne m ρ c main_arg3 (by decide))

/-- The bias row the second region reads is the bias vector laid out as one row. -/
theorem biasRow (c : Dev nD) : V2 m ρ c main_v49 = Cert.Spec.asRow 2 (m ((c : Thread nD τ).loc main_arg4)) := by
  refine (Cert.KernelIdeal.Between.biasRow m ρ c).trans ?_
  rw [W1_of_ne m ρ c main_arg4 (by decide)]
  funext j
  rw [eq_ix2 j]
  exact shapeCast_a_1a_apply _ _ (j 0) (j 1)

/-- The result buffer after the run is the reference's function of the launch contents. -/
theorem result (c : Dev nD) :
    W3 m ρ c (Proc.devRef .tc main_v50)
      = Cert.ReferenceIdeal.Read.val_main_v52 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W3_arr m ρ c 3).trans ((Cert.KernelIdeal.Region1.final (V2 m ρ) c).trans ?_)
  rw [hidden m ρ c, weights m ρ c, biasRow m ρ c]
  exact (Cert.ReferenceIdeal.RefValue.result_eq _ _ _ _ _ _).symm

end Cert.KernelIdeal.KernelValue

end
-- ==== Proof.lean ====
/-
  A two-layer graph convolution: out = (P (x · w1) + b1) · w2 + b2, where P — gather the rows at the edges' sources,
  scale by the symmetric degree normalisation, scatter-add at the destinations — depends on the edge list alone.

  The kernel program computes the two dense products in two pipelined regions, block of rows by block of rows, with
  the propagation step on the host between them; the reference computes everything on the host.  At the ideal values
  a change of float format is the identity and a matrix product accumulated into zero is the plain sum over the
  contraction index, so entry (p, q) of a product depends on row p of the left factor only and a product computed
  on a block of rows is the block of rows of the product.  Hence the first region leaves x · w1 in its output array
  (Region0Value), the host operations apply to it the very propagation function the reference applies (Between,
  RefValue: the function is carried as a name and never opened), and the second region leaves hidden · w2 plus the
  bias row (Region1Value).  The reference's result is the same expression (RefValue.result_eq).  No law of
  arithmetic beyond 0 + x = x is used, so the finiteness of the inputs is never needed.

  The three frames are the generated ones (the reference's is its generated run with the result dropped); the
  idealization rewrote nothing, so `preserves` is `True`.
-/
import proofs.«177613_j85392539779308_1_alg».proof.Defs
import proofs.«177613_j85392539779308_1_alg».proof.Proof.Gen.Kernel
import proofs.«177613_j85392539779308_1_alg».proof.Proof.Gen.Kernel.Frame
import proofs.«177613_j85392539779308_1_alg».proof.Proof.Gen.KernelIdeal
import proofs.«177613_j85392539779308_1_alg».proof.Proof.Gen.KernelIdeal.Frame
import proofs.«177613_j85392539779308_1_alg».proof.Proof.Gen.ReferenceIdeal
import proofs.«177613_j85392539779308_1_alg».proof.Proof.Gen.Pre_finite_inputs
import proofs.«177613_j85392539779308_1_alg».proof.Proof.Gen.ReferenceIdeal.Run
import proofs.«177613_j85392539779308_1_alg».proof.Proof.Gen.ReferenceIdeal.Read
import proofs.«177613_j85392539779308_1_alg».proof.Proof.KernelRun
import proofs.«177613_j85392539779308_1_alg».proof.Proof.KernelValue
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's function of the (agreeing) arguments in their result buffers. -/
theorem algebraic : Cert.algebraic_KernelIdeal_ReferenceIdeal := by
  intro m ρ m' ρ' _ hagree
  refine ⟨fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
